-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S3200000 : Shape := ⟨1, ![3200000]⟩
abbrev S1x16 : Shape := ⟨2, ![1, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x1 .f32) (main_arg1 : IVec S3200000 32) (main_arg2 : IVec S3200000 32) (main_arg3 : FVec F S1x16 .f32) (main_arg4 : FVec F S16 .f32) (main_arg5 : FVec F S16x1 .f32) (main_arg6 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg3
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg5
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg6 main_v13 main_v16
-- ==== Kernel.lean ====
abbrev S100000x1 : Shape := ⟨2, ![100000, 1]⟩
abbrev S3200000 : Shape := ⟨1, ![3200000]⟩
abbrev S1x16 : Shape := ⟨2, ![1, 16]⟩
abbrev S16 : Shape := ⟨1, ![16]⟩
abbrev S16x1 : Shape := ⟨2, ![16, 1]⟩
abbrev S1 : Shape := ⟨1, ![1]⟩
abbrev S_ : Shape := ⟨0, ![]⟩
abbrev S3200000x1 : Shape := ⟨2, ![3200000, 1]⟩
abbrev S100000x16 : Shape := ⟨2, ![100000, 16]⟩
abbrev S10000x1 : Shape := ⟨2, ![10000, 1]⟩
abbrev S10000x16 : Shape := ⟨2, ![10000, 16]⟩
abbrev S3200000x16 : Shape := ⟨2, ![3200000, 16]⟩
abbrev S1x1 : Shape := ⟨2, ![1, 1]⟩

abbrev nBuf : Space → Nat
  | .hbm => 37
  | .vmem => 12
  | .smem => 0
  | _ => 0

abbrev bufTy : (tb : Table) → Fin (tcTables nBuf tb) → BufTy
  | .hbm, ⟨0, _⟩ => ⟨S100000x1, .f32⟩
  | .hbm, ⟨1, _⟩ => ⟨S3200000, .i32⟩
  | .hbm, ⟨2, _⟩ => ⟨S3200000, .i32⟩
  | .hbm, ⟨3, _⟩ => ⟨S1x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000x1, .f32⟩
  | .hbm, ⟨16, _⟩ => ⟨S_, .f32⟩
  | .hbm, ⟨17, _⟩ => ⟨S100000x1, .f32⟩
  | .hbm, ⟨18, _⟩ => ⟨S3200000x1, .i32⟩
  | .hbm, ⟨19, _⟩ => ⟨S100000x1, .f32⟩
  | .hbm, ⟨20, _⟩ => ⟨S1x16, .f32⟩
  | .hbm, ⟨21, _⟩ => ⟨S100000x16, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x16, .f32⟩
  | .hbm, ⟨31, _⟩ => ⟨S_, .f32⟩
  | .hbm, ⟨32, _⟩ => ⟨S100000x16, .f32⟩
  | .hbm, ⟨33, _⟩ => ⟨S3200000x1, .i32⟩
  | .hbm, ⟨34, _⟩ => ⟨S100000x16, .f32⟩
  | .hbm, ⟨35, _⟩ => ⟨S1x1, .f32⟩
  | .hbm, ⟨36, _⟩ => ⟨S100000x1, .f32⟩
  | .local _ .vmem, ⟨0, _⟩ => ⟨S10000x1, .f32⟩
  | .local _ .vmem, ⟨1, _⟩ => ⟨S10000x1, .f32⟩
  | .local _ .vmem, ⟨2, _⟩ => ⟨S1x16, .f32⟩
  | .local _ .vmem, ⟨3, _⟩ => ⟨S1x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S16x1, .f32⟩
  | .local _ .vmem, ⟨9, _⟩ => ⟨S1x1, .f32⟩
  | .local _ .vmem, ⟨10, _⟩ => ⟨S10000x1, .f32⟩
  | .local _ .vmem, ⟨11, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  shapeCasts_S16_S1x16 : S16.ShapeCasts S1x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S1_S1x1 : S1.ShapeCasts S1x1
  shapeCasts_S10000x16_S10000x16 : S10000x16.ShapeCasts S10000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S10000x1_S1x16_S10000x16_1_0_0_1_n_n_wf : DotDims.WF S10000x1 S1x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)

variable [Facts₀]

def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_v9) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x1 : Shape := ⟨2, ![100000, 1]⟩
abbrev S3200000 : Shape := ⟨1, ![3200000]⟩
abbrev S1x16 : Shape := ⟨2, ![1, 16]⟩
abbrev S16 : Shape := ⟨1, ![16]⟩
abbrev S16x1 : Shape := ⟨2, ![16, 1]⟩
abbrev S1 : Shape := ⟨1, ![1]⟩
abbrev S_ : Shape := ⟨0, ![]⟩
abbrev S3200000x1 : Shape := ⟨2, ![3200000, 1]⟩
abbrev S100000x16 : Shape := ⟨2, ![100000, 16]⟩
abbrev S3200000x16 : Shape := ⟨2, ![3200000, 16]⟩
abbrev S1x1 : Shape := ⟨2, ![1, 1]⟩

abbrev nBuf : Space → Nat
  | .hbm => 47
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S3200000, .i32⟩
  | .hbm, ⟨2, _⟩ => ⟨S3200000, .i32⟩
  | .hbm, ⟨3, _⟩ => ⟨S1x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000x1, .f32⟩
  | .hbm, ⟨16, _⟩ => ⟨S_, .f32⟩
  | .hbm, ⟨17, _⟩ => ⟨S100000x1, .f32⟩
  | .hbm, ⟨18, _⟩ => ⟨S3200000x1, .i32⟩
  | .hbm, ⟨19, _⟩ => ⟨S100000x1, .f32⟩
  | .hbm, ⟨20, _⟩ => ⟨S100000x16, .f32⟩
  | .hbm, ⟨21, _⟩ => ⟨S1x16, .f32⟩
  | .hbm, ⟨22, _⟩ => ⟨S100000x16, .f32⟩
  | .hbm, ⟨23, _⟩ => ⟨S100000x16, .f32⟩
  | .hbm, ⟨24, _⟩ => ⟨S_, .f32⟩
  | .hbm, ⟨25, _⟩ => ⟨S100000x16, .f32⟩
  | .hbm, ⟨26, _⟩ => ⟨S100000x16, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x16, .f32⟩
  | .hbm, ⟨36, _⟩ => ⟨S_, .f32⟩
  | .hbm, ⟨37, _⟩ => ⟨S100000x16, .f32⟩
  | .hbm, ⟨38, _⟩ => ⟨S3200000x1, .i32⟩
  | .hbm, ⟨39, _⟩ => ⟨S100000x16, .f32⟩
  | .hbm, ⟨40, _⟩ => ⟨S100000x1, .f32⟩
  | .hbm, ⟨41, _⟩ => ⟨S1x1, .f32⟩
  | .hbm, ⟨42, _⟩ => ⟨S100000x1, .f32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S100000x1_S1x16_S100000x16_1_0_0_1_n_n_wf : DotDims.WF S100000x1 S1x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x1_S100000x1_1_0_0_1_n_n_wf : DotDims.WF S100000x16 S16x1 S100000x1 [1] [0] [0] [1] [] []

variable [Facts₀]

def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/- The idealized kernel's whole run with its result named. The program is two pipelined regions among two stretches of host
   operations; every weakly fair execution ends, and at the end EVERY unscoped buffer of a core holds what the fold through
   the four segments leaves in it: the launch memory, then the first stretch's operations, then the first region's
   write-backs over its arrays, then the second stretch's operations, then the second region's write-backs. Read at the
   result buffer this is the second region's output array after its last grid point; read at an argument it is the
   launch contents. -/
import proofs.«154791_j19327352832521_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main terminates, nothing faulting, and in every final state each unscoped buffer of each
    core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the result and at the seven arguments: the result is the second region's output array after its
    last grid point, from the contents that region was entered with; the arguments are as launched. -/
theorem run_named : θ_run defs (onTc (τ := τ) (main (F := F))) ⟨m, fun _ => 0, ρ⟩ (fun r => ∀ c : Dev nD,
      r.2.mem ((c.tc : Thread nD τ).loc main_v23) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c _ (mem_uc main_v23 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (run_all m ρ)

end Cert.KernelIdeal.Named

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.Dense.lean ====
/- One dense layer followed by a rectifier, on the extended reals, for any extents: from an array A of shape [N, K], a
   weight W of shape [K, D] and a bias row B of shape [1, D], the entry (p, c) is max(sum over k of A(p,k) * W(k,c) + B(0,c), 0).
   Two spellings of that layer are read here at coordinates and shown to be this one function: the host's (a
   dot_general, a bias vector broadcast to a row and then down the rows, a maximum against a broadcast zero), whole-array;
   and a tile's (operands rounded to bf16, which on the extended reals changes nothing, a matrix product into a zero
   accumulator, the bias row broadcast down the tile, a maximum against a splat zero). Both are plain sums of products:
   no finiteness is used. A bias vector made a row by a reshape and by a broadcast along a new leading axis are the same row. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«154791_j19327352832521_2_alg».proof.Proof.LibPlainMatmul
import proofs.«154791_j19327352832521_2_alg».proof.Proof.LibPlainDot
import proofs.«154791_j19327352832521_2_alg».proof.Proof.LibBroadcastReads

noncomputable section

open scoped BigOperators

open Idealize.ShloMosaic Idealize.ShloMosaic.ValueIdx

namespace Cert.Gcn

/-- Entry (p, c) of the layer: the row p of A against the column c of W, plus the bias at c, cut below at zero. -/
def denseAt {N K D : ℕ} (A : FVec Ideal ⟨2, ![N, K]⟩ .f32) (W : FVec Ideal ⟨2, ![K, D]⟩ .f32) (B : FVec Ideal ⟨2, ![1, D]⟩ .f32)
    (p : Fin N) (c : Fin D) : EReal :=
  max (∑ k : Fin K, A (ix2 p k) * W (ix2 k c) + B (ix2 (0 : Fin 1) c)) 0

/-- The layer as one array of shape [N, D]. -/
def denseRow {N K D : ℕ} (A : FVec Ideal ⟨2, ![N, K]⟩ .f32) (W : FVec Ideal ⟨2, ![K, D]⟩ .f32) (B : FVec Ideal ⟨2, ![1, D]⟩ .f32) :
    FVec Ideal ⟨2, ![N, D]⟩ .f32 :=
  fun j => denseAt A W B ⟨(j 0).val, idx2_lt0 j⟩ ⟨(j 1).val, idx2_lt1 j⟩

theorem denseRow_apply {N K D : ℕ} (A : FVec Ideal ⟨2, ![N, K]⟩ .f32) (W : FVec Ideal ⟨2, ![K, D]⟩ .f32) (B : FVec Ideal ⟨2, ![1, D]⟩ .f32)
    (p : Fin N) (c : Fin D) : denseRow A W B (ix2 p c) = denseAt A W B p c := rfl

/-- A bias vector as a row. -/
def biasRow {D : ℕ} (b : FVec Ideal ⟨1, ![D]⟩ .f32) : FVec Ideal ⟨2, ![1, D]⟩ .f32 :=
  fun j => b (ix1 ⟨(j 1).val, idx2_lt1 j⟩)

/-- The layer with its bias given as a vector. -/
def dense {N K D : ℕ} (A : FVec Ideal ⟨2, ![N, K]⟩ .f32) (W : FVec Ideal ⟨2, ![K, D]⟩ .f32) (b : FVec Ideal ⟨1, ![D]⟩ .f32) :
    FVec Ideal ⟨2, ![N, D]⟩ .f32 :=
  denseRow A W (biasRow b)

/-- A vector reshaped to a row is that row. -/
theorem reshape_biasRow {D : ℕ} (b : FVec Ideal ⟨1, ![D]⟩ .f32) (h : (⟨1, ![D]⟩ : Shape).ShapeCasts ⟨2, ![1, D]⟩) :
    shapeCast ⟨2, ![1, D]⟩ b h = biasRow b := by
  funext j
  obtain ⟨u, i, rfl⟩ : ∃ (u : Fin 1) (i : Fin D), j = ix2 u i := ⟨j 0, j 1, eq_ix2 j⟩
  exact shapeCast_a_1a_apply b h u i

/-- A vector broadcast along a new leading unit axis is that row. -/
theorem broadcast_biasRow {D : ℕ} (b : FVec Ideal ⟨1, ![D]⟩ .f32) (h : (⟨1, ![D]⟩ : Shape).BroadcastsInDim ⟨2, ![1, D]⟩ ![1]) :
    broadcastInDim ⟨2, ![1, D]⟩ ![1] h b = biasRow b := by
  funext j
  obtain ⟨u, i, rfl⟩ : ∃ (u : Fin 1) (i : Fin D), j = ix2 u i := ⟨j 0, j 1, eq_ix2 j⟩
  exact Cert.Lib.BroadcastReads.broadcastInDim_b_1b_apply b h u i

/-- The host's spelling of the layer is the layer. -/
theorem host_dense {N K D : ℕ} (A : FVec Ideal ⟨2, ![N, K]⟩ .f32) (W : FVec Ideal ⟨2, ![K, D]⟩ .f32) (B : FVec Ideal ⟨2, ![1, D]⟩ .f32)
    (dims : DotDims ⟨2, ![N, K]⟩ ⟨2, ![K, D]⟩ ⟨2, ![N, D]⟩) (hd : dims = DotDims.plain N K D)
    (h2 : (⟨2, ![1, D]⟩ : Shape).BroadcastsInDim ⟨2, ![N, D]⟩ ![0, 1])
    (h3 : (⟨0, ![]⟩ : Shape).BroadcastsInDim ⟨2, ![N, D]⟩ ![]) :
    maximumf (addf (Host.dotGeneral dims none A W) (broadcastInDim ⟨2, ![N, D]⟩ ![0, 1] h2 B))
        (broadcastInDim ⟨2, ![N, D]⟩ ![] h3 (constant (F := Ideal) ⟨0, ![]⟩ .f32 0x00000000#32))
      = denseRow A W B := by
  subst hd
  funext j
  obtain ⟨p, c, rfl⟩ : ∃ (p : Fin N) (c : Fin D), j = ix2 p c := ⟨j 0, j 1, eq_ix2 j⟩
  rw [denseRow_apply, maximumf_apply, addf_apply]
  unfold denseAt
  simp only [Host.dotGeneral]
  rw [Cert.Lib.PlainDot.plain_dotGeneral_apply, Cert.Lib.BroadcastReads.broadcastInDim_1b_ab_apply,
    broadcastInDim_apply _ h3 _ (ix2 p c) ix0 (fun a => a.elim0), constant_apply, Ideal.ofBits_zero_f32]

/-- A tile's spelling of the layer, read at (p, c), is the layer's entry over the tile's rows. -/
theorem tile_dense_apply {T K D : ℕ} (x0 : FVec Ideal ⟨2, ![T, K]⟩ .f32) (x1 : FVec Ideal ⟨2, ![K, D]⟩ .f32) (x2 : FVec Ideal ⟨2, ![1, D]⟩ .f32)
    (dims : DotDims ⟨2, ![T, K]⟩ ⟨2, ![K, D]⟩ ⟨2, ![T, D]⟩) (hd : dims = DotDims.plain T K D)
    (hc0 : (⟨2, ![T, K]⟩ : Shape).ShapeCasts ⟨2, ![T, K]⟩) (hc2 : (⟨2, ![1, D]⟩ : Shape).ShapeCasts ⟨2, ![1, D]⟩)
    (hlt : FTy.bf16.bits < FTy.f32.bits) (hbr : (⟨2, ![1, D]⟩ : Shape).Broadcasts ⟨2, ![T, D]⟩) (p : Fin T) (c : Fin D) :
    maximumf (addf (matmul dims none (truncf .bf16 (shapeCast ⟨2, ![T, K]⟩ x0 hc0) hlt) (truncf .bf16 x1 hlt)
          (constant (F := Ideal) ⟨2, ![T, D]⟩ .f32 0x00000000#32))
        (broadcastTo ⟨2, ![T, D]⟩ (shapeCast ⟨2, ![1, D]⟩ x2 hc2) hbr))
      (broadcast ⟨2, ![T, D]⟩ (Scalar.ofBits (F := Ideal) .f32 0x00000000#32)) (ix2 p c)
      = denseAt x0 x1 x2 p c := by
  subst hd
  rw [maximumf_apply, addf_apply, shapeCast_self, shapeCast_self, broadcast_apply, broadcastTo_1b_ab_apply]
  unfold denseAt
  refine congrArg₂ max (congrArg (· + x2 (ix2 (0 : Fin 1) c)) ?_) Ideal.ofBits_zero_f32
  exact Cert.Lib.PlainMatmul.plain_matmul_zero_apply (truncf .bf16 x0 hlt) (truncf .bf16 x1 hlt) p c

/-- The layer is local in the rows: if a tile a holds the rows off, off+1, … of A, and w, b hold W and B, then the layer of
    the tile, at a tile index y, is the layer of the whole at the index i that lies y's row below off in y's column. -/
theorem denseRow_block {N T K D : ℕ} (A : FVec Ideal ⟨2, ![N, K]⟩ .f32) (W : FVec Ideal ⟨2, ![K, D]⟩ .f32) (B : FVec Ideal ⟨2, ![1, D]⟩ .f32)
    (a : FVec Ideal ⟨2, ![T, K]⟩ .f32) (w : FVec Ideal ⟨2, ![K, D]⟩ .f32) (b : FVec Ideal ⟨2, ![1, D]⟩ .f32) (off : ℕ)
    (ha : ∀ (p : Fin T) (k : Fin K) (h : off + p.val < N), a (ix2 p k) = A (ix2 ⟨off + p.val, h⟩ k))
    (hw : ∀ (k : Fin K) (c : Fin D), w (ix2 k c) = W (ix2 k c))
    (hb : ∀ c : Fin D, b (ix2 (0 : Fin 1) c) = B (ix2 (0 : Fin 1) c))
    (y : (⟨2, ![T, D]⟩ : Shape).Idx) (i : (⟨2, ![N, D]⟩ : Shape).Idx)
    (h0 : (i 0).val = off + (y 0).val) (h1 : (i 1).val = (y 1).val) :
    denseRow a w b y = denseRow A W B i := by
  have hi0 : (i 0).val < N := idx2_lt0 i
  have hlt : off + (y 0).val < N := by omega
  have er : (⟨(i 0).val, idx2_lt0 i⟩ : Fin N) = ⟨off + (y 0).val, hlt⟩ := Fin.ext h0
  have ec : (⟨(i 1).val, idx2_lt1 i⟩ : Fin D) = ⟨(y 1).val, idx2_lt1 y⟩ := Fin.ext h1
  unfold denseRow denseAt
  rw [er, ec, hb]
  refine congrArg (max · 0) (congrArg (· + B (ix2 (0 : Fin 1) ⟨(y 1).val, idx2_lt1 y⟩)) ?_)
  exact Finset.sum_congr rfl fun k _ => by rw [ha ⟨(y 0).val, idx2_lt0 y⟩ k hlt, hw]

end Cert.Gcn

end
-- ==== Proof.Region0.lean ====
/- The first pipelined region's output array as one function of the three arrays the region is entered with: for the rows
   array A (shape [100000, 1]), the weight W ([1, 16]) and the bias row B ([1, 16]), after the last of its 10 grid points the
   output array ([100000, 16]) holds the dense layer max(A·W + B, 0). Grid point t works on rows 10000·t … 10000·t + 9999:
   its body stores the layer of that tile of rows (the tile's spelling read at coordinates), the weight's and the bias's
   windows are their whole arrays at every point, and the point writes its tile back to the same rows. The layer is local
   in the rows, so each written tile is a restriction of the whole layer; the 10 tiles cover every row. Stated for ANY
   entry contents V of the region. -/
import proofs.«154791_j19327352832521_2_alg».proof.Proof.Gen.KernelIdeal.Frame
import proofs.«154791_j19327352832521_2_alg».proof.Proof.Dense
import Idealize.ShloMosaic.Lib.Pipeline.Value

set_option maxRecDepth 16384

noncomputable section

namespace Cert.KernelIdeal.Layer0

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value, at (p, c) of the tile, is the layer's entry over the tile's rows. -/
theorem pay_apply (x0 : FVec Ideal S10000x1 .f32) (x1 x2 : FVec Ideal S1x16 .f32) (p : Fin 10000) (c : Fin 16) :
    k0_pay1 (F := Ideal) x0 x1 x2 (ix2 p c) = denseAt x0 x1 x2 p c := by
  unfold k0_pay1
  exact tile_dense_apply x0 x1 x2 _ rfl _ _ _ _ p c

/-- What the body leaves in the output's staging buffer is the layer of the three staged blocks. -/
theorem out_eq (x0 : FVec Ideal S10000x1 .f32) (x1 x2 : FVec Ideal S1x16 .f32) :
    out0_3 (F := Ideal) x0 x1 x2 = denseRow x0 x1 x2 := by
  unfold out0_3
  rw [View.canon_unit_zero hz]
  simp only [View.ld_unit_zero (S := S10000x1) hz, View.ld_unit_zero (S := S1x16) hz]
  funext y
  obtain ⟨p, q, rfl⟩ : ∃ (p : Fin 10000) (q : Fin 16), y = ix2 p q := ⟨y 0, y 1, eq_ix2 y⟩
  exact pay_apply x0 x1 x2 p q

/-- The printed index maps over the grid: the rows' and the output's windows move with the point along axis 0, the weight's
    and the bias's stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows' block at point t is rows 10000·t … of the rows array. -/
theorem rows_apply (c : Dev nD) (t : Fin cfg0.N) (p : Fin 10000) (k : Fin 1) (h : t.val * 10000 + p.val < 100000) :
    (iblk0 V c 0 t : FVec Ideal S10000x1 .f32) (ix2 p k)
      = (V c main_v9 : FVec Ideal S100000x1 .f32) (ix2 ⟨t.val * 10000 + p.val, h⟩ k) := by
  obtain ⟨e0, e1, -⟩ := idx_facts t
  unfold iblk0
  rw [View.read_apply]
  show (V c main_v9 : FVec Ideal S100000x1 .f32) (((cfg0.win 0).blk t).view.emb (ix2 p k)) = _
  refine congrArg _ (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 1 + 1 * k.val = k.val; rw [e1]; omega

/-- The weight's block at every point is the weight. -/
theorem weight_apply (c : Dev nD) (t : Fin cfg0.N) (k : Fin 1) (q : Fin 16) :
    (iblk0 V c 1 t : FVec Ideal S1x16 .f32) (ix2 k q) = (V c main_arg3 : FVec Ideal S1x16 .f32) (ix2 k q) := by
  obtain ⟨-, -, e0, e1, -⟩ := idx_facts t
  unfold iblk0
  rw [View.read_apply]
  show (V c main_arg3 : FVec Ideal S1x16 .f32) (((cfg0.win 1).blk t).view.emb (ix2 k q)) = _
  refine congrArg _ (funext fun a => Fin.ext ?_)
  match a with
  | ⟨0, _⟩ => show win0_1.index t (0 : Fin 2) * 1 + 1 * k.val = k.val; rw [e0]; omega
  | ⟨1, _⟩ => show win0_1.index t (1 : Fin 2) * 16 + 1 * q.val = q.val; rw [e1]; omega

/-- The bias row's block at every point is the bias row. -/
theorem bias_apply (c : Dev nD) (t : Fin cfg0.N) (q : Fin 16) :
    (iblk0 V c 2 t : FVec Ideal S1x16 .f32) (ix2 (0 : Fin 1) q) = (V c main_v10 : FVec Ideal S1x16 .f32) (ix2 (0 : Fin 1) q) := by
  obtain ⟨-, -, -, -, e0, e1, -⟩ := idx_facts t
  unfold iblk0
  rw [View.read_apply]
  show (V c main_v10 : FVec Ideal S1x16 .f32) (((cfg0.win 2).blk t).view.emb (ix2 (0 : Fin 1) q)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 16 + 1 * q.val = q.val; rw [e1]; omega

/-- What point t writes back is block t of the layer of the region's entry arrays. -/
theorem flushed_eq (c : Dev nD) (t : Fin cfg0.N) :
    (dat0 V c).flushed 3 t
      = ((cfg0.win 3).blk t).view.read (Elt Ideal) (denseRow (V c main_v9) (V c main_arg3) (V c main_v10)) := by
  show (cfg0.win 3).cut (grid0.coords t) ((dat0 V c).after 3 t) = _
  rw [after0_3, out_eq]
  obtain ⟨-, -, -, -, -, -, e0, e1⟩ := idx_facts t
  funext y
  rw [View.read_apply]
  refine denseRow_block (V c main_v9) (V c main_arg3) (V c main_v10) (iblk0 V c 0 t) (iblk0 V c 1 t) (iblk0 V c 2 t)
    (t.val * 10000) (fun p k h => rows_apply V c t p k h) (fun k q => weight_apply V c t k q) (fun q => bias_apply V c t q)
    y _ ?_ ?_
  · show win0_3.index t (0 : Fin 2) * 10000 + 1 * (y 0).val = t.val * 10000 + (y 0).val; rw [e0]; omega
  · show win0_3.index t (1 : Fin 2) * 16 + 1 * (y 1).val = (y 1).val; rw [e1]; omega

/-- An index of the output array is in point t's block iff each coordinate is in the block's range on its axis. -/
theorem mem_blk (t : Fin cfg0.N) (i : S100000x16.Idx) :
    i ∈ ((cfg0.win 3).blk t).view.set
      ↔ ∀ a : Fin 2, win0_3.index t a * S10000x16.size a ≤ (i a).val ∧ (i a).val < win0_3.index t a * S10000x16.size a + S10000x16.size a := by
  show i ∈ ((View.whole main_v11).slice (win0_3.rect t)).set ↔ _
  rw [View.set_slice_whole, Rect.mem_set_unit]
  exact Iff.rfl

/-- Every index of the output array is in the block of the point its row falls under. -/
theorem cover (i : S100000x16.Idx) : ∃ t : Fin cfg0.N, (cfg0.win 3).flush t = true ∧ i ∈ ((cfg0.win 3).blk t).view.set := by
  have hi0 : (i 0).val < 100000 := idx2_lt0 i
  have hi1 : (i 1).val < 16 := idx2_lt1 i
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 16 ≤ (i 1).val ∧ (i 1).val < win0_3.index t (1 : Fin 2) * 16 + 16
    rw [e1]; omega

/-- The output array after the last point is the layer of the region's entry arrays. -/
theorem final (c : Dev nD) :
    (dat0 V c).arrAt 3 cfg0.N = denseRow (V c main_v9) (V c main_arg3) (V c main_v10) :=
  (dat0 V c).arrAt_eq_of_cover 3 _ (fun t _ => flushed_eq V c t) cover

end Cert.KernelIdeal.Layer0

end
-- ==== Proof.Region1.lean ====
/- The second pipelined region's output array as one function of the three arrays the region is entered with: for the rows
   array A (shape [100000, 16]), the weight W ([16, 1]) and the bias row B ([1, 1]), after the last of its 10 grid points the
   output array ([100000, 1]) holds the dense layer max(A·W + B, 0). Grid point t works on rows 10000·t … 10000·t + 9999:
   its body stores the layer of that tile of rows, the weight's and the bias's windows are their whole arrays at every
   point, and the point writes its tile back to the same rows. The layer is local in the rows, so each written tile is a
   restriction of the whole layer; the 10 tiles cover every row. Stated for ANY entry contents V of the region. -/
import proofs.«154791_j19327352832521_2_alg».proof.Proof.Gen.KernelIdeal.Frame
import proofs.«154791_j19327352832521_2_alg».proof.Proof.Dense
import Idealize.ShloMosaic.Lib.Pipeline.Value

set_option maxRecDepth 16384

noncomputable section

namespace Cert.KernelIdeal.Layer1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value, at (p, c) of the tile, is the layer's entry over the tile's rows. -/
theorem pay_apply (x0 : FVec Ideal S10000x16 .f32) (x1 : FVec Ideal S16x1 .f32) (x2 : FVec Ideal S1x1 .f32) (p : Fin 10000) (c : Fin 1) :
    k1_pay1 (F := Ideal) x0 x1 x2 (ix2 p c) = denseAt x0 x1 x2 p c := by
  unfold k1_pay1
  exact tile_dense_apply x0 x1 x2 _ rfl _ _ _ _ p c

/-- What the body leaves in the output's staging buffer is the layer of the three staged blocks. -/
theorem out_eq (x0 : FVec Ideal S10000x16 .f32) (x1 : FVec Ideal S16x1 .f32) (x2 : FVec Ideal S1x1 .f32) :
    out1_3 (F := Ideal) x0 x1 x2 = denseRow x0 x1 x2 := by
  unfold out1_3
  rw [View.canon_unit_zero hz]
  simp only [View.ld_unit_zero (S := S10000x16) hz, View.ld_unit_zero (S := S16x1) hz, View.ld_unit_zero (S := S1x1) hz]
  funext y
  obtain ⟨p, q, rfl⟩ : ∃ (p : Fin 10000) (q : Fin 1), y = ix2 p q := ⟨y 0, y 1, eq_ix2 y⟩
  exact pay_apply x0 x1 x2 p q

/-- The printed index maps over the grid: the rows' and the output's windows move with the point along axis 0, the weight's
    and the bias's stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The rows' block at point t is rows 10000·t … of the rows array. -/
theorem rows_apply (c : Dev nD) (t : Fin cfg1.N) (p : Fin 10000) (k : Fin 16) (h : t.val * 10000 + p.val < 100000) :
    (iblk1 V c 0 t : FVec Ideal S10000x16 .f32) (ix2 p k)
      = (V c main_v21 : FVec Ideal S100000x16 .f32) (ix2 ⟨t.val * 10000 + p.val, h⟩ k) := by
  obtain ⟨e0, e1, -⟩ := idx_facts t
  unfold iblk1
  rw [View.read_apply]
  show (V c main_v21 : FVec Ideal S100000x16 .f32) (((cfg1.win 0).blk t).view.emb (ix2 p k)) = _
  refine congrArg _ (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 16 + 1 * k.val = k.val; rw [e1]; omega

/-- The weight's block at every point is the weight. -/
theorem weight_apply (c : Dev nD) (t : Fin cfg1.N) (k : Fin 16) (q : Fin 1) :
    (iblk1 V c 1 t : FVec Ideal S16x1 .f32) (ix2 k q) = (V c main_arg5 : FVec Ideal S16x1 .f32) (ix2 k q) := by
  obtain ⟨-, -, e0, e1, -⟩ := idx_facts t
  unfold iblk1
  rw [View.read_apply]
  show (V c main_arg5 : FVec Ideal S16x1 .f32) (((cfg1.win 1).blk t).view.emb (ix2 k q)) = _
  refine congrArg _ (funext fun a => Fin.ext ?_)
  match a with
  | ⟨0, _⟩ => show win1_1.index t (0 : Fin 2) * 16 + 1 * k.val = k.val; rw [e0]; omega
  | ⟨1, _⟩ => show win1_1.index t (1 : Fin 2) * 1 + 1 * q.val = q.val; rw [e1]; omega

/-- The bias row's block at every point is the bias row. -/
theorem bias_apply (c : Dev nD) (t : Fin cfg1.N) (q : Fin 1) :
    (iblk1 V c 2 t : FVec Ideal S1x1 .f32) (ix2 (0 : Fin 1) q) = (V c main_v22 : FVec Ideal S1x1 .f32) (ix2 (0 : Fin 1) q) := by
  obtain ⟨-, -, -, -, e0, e1, -⟩ := idx_facts t
  unfold iblk1
  rw [View.read_apply]
  show (V c main_v22 : FVec Ideal S1x1 .f32) (((cfg1.win 2).blk t).view.emb (ix2 (0 : Fin 1) q)) = _
  refine congrArg _ (funext fun a => Fin.ext ?_)
  match a with
  | ⟨0, _⟩ => show win1_2.index t (0 : Fin 2) * 1 + 1 * 0 = 0; rw [e0]
  | ⟨1, _⟩ => show win1_2.index t (1 : Fin 2) * 1 + 1 * q.val = q.val; rw [e1]; omega

/-- What point t writes back is block t of the layer of the region's entry arrays. -/
theorem flushed_eq (c : Dev nD) (t : Fin cfg1.N) :
    (dat1 V c).flushed 3 t
      = ((cfg1.win 3).blk t).view.read (Elt Ideal) (denseRow (V c main_v21) (V c main_arg5) (V c main_v22)) := by
  show (cfg1.win 3).cut (grid1.coords t) ((dat1 V c).after 3 t) = _
  rw [after1_3, out_eq]
  obtain ⟨-, -, -, -, -, -, e0, e1⟩ := idx_facts t
  funext y
  rw [View.read_apply]
  refine denseRow_block (V c main_v21) (V c main_arg5) (V c main_v22) (iblk1 V c 0 t) (iblk1 V c 1 t) (iblk1 V c 2 t)
    (t.val * 10000) (fun p k h => rows_apply V c t p k h) (fun k q => weight_apply V c t k q) (fun q => bias_apply V c t q)
    y _ ?_ ?_
  · show win1_3.index t (0 : Fin 2) * 10000 + 1 * (y 0).val = t.val * 10000 + (y 0).val; rw [e0]; omega
  · show win1_3.index t (1 : Fin 2) * 1 + 1 * (y 1).val = (y 1).val; rw [e1]; omega

/-- An index of the output array is in point t's block iff each coordinate is in the block's range on its axis. -/
theorem mem_blk (t : Fin cfg1.N) (i : S100000x1.Idx) :
    i ∈ ((cfg1.win 3).blk t).view.set
      ↔ ∀ a : Fin 2, win1_3.index t a * S10000x1.size a ≤ (i a).val ∧ (i a).val < win1_3.index t a * S10000x1.size a + S10000x1.size a := by
  show i ∈ ((View.whole main_v23).slice (win1_3.rect t)).set ↔ _
  rw [View.set_slice_whole, Rect.mem_set_unit]
  exact Iff.rfl

/-- Every index of the output array is in the block of the point its row falls under. -/
theorem cover (i : S100000x1.Idx) : ∃ t : Fin cfg1.N, (cfg1.win 3).flush t = true ∧ i ∈ ((cfg1.win 3).blk t).view.set := by
  have hi0 : (i 0).val < 100000 := idx2_lt0 i
  have hi1 : (i 1).val < 1 := idx2_lt1 i
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    rw [e0, ht]; omega
  | ⟨1, _⟩ =>
    show win1_3.index t (1 : Fin 2) * 1 ≤ (i 1).val ∧ (i 1).val < win1_3.index t (1 : Fin 2) * 1 + 1
    rw [e1]; omega

/-- The output array after the last point is the layer of the region's entry arrays. -/
theorem final (c : Dev nD) :
    (dat1 V c).arrAt 3 cfg1.N = denseRow (V c main_v21) (V c main_arg5) (V c main_v22) :=
  (dat1 V c).arrAt_eq_of_cover 3 _ (fun t _ => flushed_eq V c t) cover

end Cert.KernelIdeal.Layer1

end
-- ==== Proof.HostChain.lean ====
/- The host side of the idealized kernel, between the launch memory and each pipelined region's entry. Both stretches of
   host operations compute a neighbour sum: the edge sources (a negative index counted from the end, as the printed
   select / add / compare say) pick rows of the node array, and the picked rows are added into a zero array at the edge
   destinations. Those two chains are named here as two functions of (node array, sources, destinations) and are never
   opened: the reference applies the very same operations. Then the contents each region is entered with are read off the
   fold through @main's segments: region 0's rows are the first neighbour sum of the arguments, its weight is argument 3, its
   bias row argument 4 reshaped; region 1's rows are the second neighbour sum of what region 0 left in its output array, its
   weight is argument 5, its bias row argument 6 reshaped. -/
import proofs.«154791_j19327352832521_2_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

/-- The edge sources as gather start indices: a negative source counts from the end of the 100000 nodes; one column. -/
def startIdx (src : IVec S3200000 32) : IVec S3200000x1 32 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- The neighbour sum of a one-column node array: rows picked at the sources, added into zero at the destinations. -/
def neighbourSum1 (x : FVec F S100000x1 .f32) (src dst : IVec S3200000 32) : FVec F S100000x1 .f32 :=
  Host.scatterAdd scatter_S100000x1_S3200000x1_S3200000x1_1_0_0_1
    (broadcastInDim S100000x1 ![] bcast_S_S100000x1 (constant S_ .f32 0x00000000#32))
    (broadcastInDim S3200000x1 ![0] bcast_S3200000_S3200000x1_0 dst)
    (Host.gather gather_S100000x1_S3200000x1_S3200000x1_1_0_n_n_0_1_11 x (startIdx src))

/-- The neighbour sum of a sixteen-column node array. -/
def neighbourSum16 (h : FVec F S100000x16 .f32) (src dst : IVec S3200000 32) : FVec F S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 dst)
    (Host.gather gather_S100000x16_S3200000x1_S3200000x16_1_0_n_n_0_1_116 h (startIdx src))

variable (m : (ℓ : Loc nD τ sig) → Buf (Elt F) ℓ) (ρ : Dev nD → PrngReg)

/-! ## Region 0's entry contents -/

theorem entry0_rows (c : Dev nD) :
    V1 m ρ c main_v9 = neighbourSum1 (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

theorem entry0_weight (c : Dev nD) : V1 m ρ c main_arg3 = m ((c : Thread nD τ).loc main_arg3) := by
  show StableHlo.after hostOps0 (W0 m ρ c) (Proc.devRef .tc main_arg3) = _
  after_results

theorem entry0_bias (c : Dev nD) :
    V1 m ρ c main_v10 = shapeCast S1x16 (m ((c : Thread nD τ).loc main_arg4)) shapeCasts_S16_S1x16 := by
  show StableHlo.after hostOps0 (W0 m ρ c) (Proc.devRef .tc main_v10) = _
  after_results
  rfl

/-! ## The arguments region 1's stretch reads, as region 0 leaves them -/

theorem exit0_arg (b : Ref sig .tc) (hb : ∀ w, Pipeline.arrRef spec0 w ≠ b) (c : Dev nD)
    (h1 : StableHlo.after hostOps0 (W0 m ρ c) (Proc.devRef .tc b) = m ((c : Thread nD τ).loc b)) :
    W2 m ρ c (Proc.devRef .tc b) = m ((c : Thread nD τ).loc b) :=
  (W2_of_ne m ρ c b hb).trans h1

theorem exit0_arg1 (c : Dev nD) : W2 m ρ c (Proc.devRef .tc main_arg1) = m ((c : Thread nD τ).loc main_arg1) :=
  exit0_arg m ρ main_arg1 (by decide) c (by after_results)

theorem exit0_arg2 (c : Dev nD) : W2 m ρ c (Proc.devRef .tc main_arg2) = m ((c : Thread nD τ).loc main_arg2) :=
  exit0_arg m ρ main_arg2 (by decide) c (by after_results)

theorem exit0_arg5 (c : Dev nD) : W2 m ρ c (Proc.devRef .tc main_arg5) = m ((c : Thread nD τ).loc main_arg5) :=
  exit0_arg m ρ main_arg5 (by decide) c (by after_results)

theorem exit0_arg6 (c : Dev nD) : W2 m ρ c (Proc.devRef .tc main_arg6) = m ((c : Thread nD τ).loc main_arg6) :=
  exit0_arg m ρ main_arg6 (by decide) c (by after_results)

/-- Region 0's output array at its exit is what its pipeline leaves after the last point. -/
theorem exit0_out (c : Dev nD) : W2 m ρ c (Proc.devRef .tc main_v11) = (dat0 (V1 m ρ) c).arrAt 3 cfg0.N :=
  W2_arr m ρ c 3

/-! ## Region 1's entry contents -/

theorem entry1_rows (c : Dev nD) :
    V3 m ρ c main_v21 = neighbourSum16 ((dat0 (V1 m ρ) c).arrAt 3 cfg0.N) (m ((c : Thread nD τ).loc main_arg1)) (m ((c : Thread nD τ).loc main_arg2)) := by
  have e0 := exit0_out m ρ c
  have e1 := exit0_arg1 m ρ c
  have e2 := exit0_arg2 m ρ c
  show StableHlo.after hostOps1 (W2 m ρ c) (Proc.devRef .tc main_v21) = _
  generalize W2 m ρ c = W at e0 e1 e2 ⊢
  after_results
  rw [e0, e1, e2]
  rfl

theorem entry1_weight (c : Dev nD) : V3 m ρ c main_arg5 = m ((c : Thread nD τ).loc main_arg5) := by
  have e5 := exit0_arg5 m ρ c
  show StableHlo.after hostOps1 (W2 m ρ c) (Proc.devRef .tc main_arg5) = _
  generalize W2 m ρ c = W at e5 ⊢
  after_results
  exact e5

theorem entry1_bias (c : Dev nD) :
    V3 m ρ c main_v22 = shapeCast S1x1 (m ((c : Thread nD τ).loc main_arg6)) shapeCasts_S1_S1x1 := by
  have e6 := exit0_arg6 m ρ c
  show StableHlo.after hostOps1 (W2 m ρ c) (Proc.devRef .tc main_v22) = _
  generalize W2 m ρ c = W at e6 ⊢
  after_results
  rw [e6]
  rfl

end Cert.KernelIdeal.Host

end
-- ==== Proof.Network.lean ====
/- The two-layer network both programs compute, as one function of the seven arguments on the extended reals: the neighbour
   sum of the node features over the edges, a dense layer 1 → 16 with a rectifier, the neighbour sum of that over the same
   edges, a dense layer 16 → 1 with a rectifier. -/
import proofs.«154791_j19327352832521_2_alg».proof.Proof.HostChain
import proofs.«154791_j19327352832521_2_alg».proof.Proof.Dense

noncomputable section

namespace Cert.Gcn

open Cert.KernelIdeal Cert.KernelIdeal.Host Idealize.ShloMosaic

/-- Two rounds of (sum over incoming edges, dense layer, rectifier). -/
def gcn (x : FVec Ideal S100000x1 .f32) (src dst : IVec S3200000 32) (W1 : FVec Ideal S1x16 .f32) (b1 : FVec Ideal S16 .f32)
    (W2 : FVec Ideal S16x1 .f32) (b2 : FVec Ideal S1 .f32) : FVec Ideal S100000x1 .f32 :=
  dense (neighbourSum16 (dense (neighbourSum1 x src dst) W1 b1) src dst) W2 b2

end Cert.Gcn

end
-- ==== Proof.KernelValue.lean ====
/- The idealized kernel's result is the network of its arguments. The run ends with the result buffer at the second region's
   output array after its last grid point; that array is the dense layer of the contents the region was entered with; those
   are the second neighbour sum of the first region's output array, argument 5, and argument 6 as a row; the first region's
   output array is the dense layer of its own entry contents, which are the first neighbour sum of the arguments, argument 3,
   and argument 4 as a row. -/
import proofs.«154791_j19327352832521_2_alg».proof.Proof.KernelRun
import proofs.«154791_j19327352832521_2_alg».proof.Proof.Region0
import proofs.«154791_j19327352832521_2_alg».proof.Proof.Region1
import proofs.«154791_j19327352832521_2_alg».proof.Proof.Network

set_option maxRecDepth 16384

noncomputable section

namespace Cert.KernelIdeal.Result

open Cert.KernelIdeal Cert.KernelIdeal.Gen Cert.KernelIdeal.Host Cert.Gcn
open Idealize.ShloMosaic Idealize.ShloMosaic.TcCoe Idealize.SL.Sem

variable (m : (ℓ : Loc nD τ sig) → Buf (Elt Ideal) ℓ) (ρ : Dev nD → PrngReg)

/-- The second region's output array after its last point is the network of the launch contents of the arguments. -/
theorem result_eq (c : Dev nD) :
    (dat1 (V3 m ρ) c).arrAt 3 cfg1.N
      = gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [Layer1.final (V3 m ρ) c, entry1_rows m ρ c, entry1_weight m ρ c, entry1_bias m ρ c,
    Layer0.final (V1 m ρ) c, entry0_rows m ρ c, entry0_weight m ρ c, entry0_bias m ρ c,
    reshape_biasRow, reshape_biasRow]
  rfl

/-- Every weakly fair execution of the idealized kernel terminates with the result at the network of the arguments, the
    arguments unchanged. -/
theorem run : θ_run defs (onTc (τ := τ) (main (F := Ideal))) ⟨m, fun _ => 0, ρ⟩ (fun r => ∀ c : Dev nD,
      r.2.mem ((c.tc : Thread nD τ).loc main_v23)
        = gcn (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Cert.KernelIdeal.Named.run_named m ρ)

end Cert.KernelIdeal.Result

end
-- ==== Proof.RefValue.lean ====
/- The idealized reference's result is the network of its arguments. Its run ends with the result at the composed term of its
   forty host operations; in that term each "dot_general, bias broadcast to a row and down the rows, maximum against zero" is
   the dense layer (the host's spelling read at coordinates), and each gather / scatter-add chain is the very chain the
   kernel's host side applies (the same operations with the same dimension numbers), so it is carried unopened. -/
import proofs.«154791_j19327352832521_2_alg».proof.Proof.Gen.ReferenceIdeal.Run
import proofs.«154791_j19327352832521_2_alg».proof.Proof.Network

set_option maxRecDepth 16384

noncomputable section

namespace Cert.ReferenceIdeal.RefValue

open Cert.ReferenceIdeal Cert.ReferenceIdeal.Gen Cert.Gcn
open Idealize.ShloMosaic Idealize.ShloMosaic.TcCoe Idealize.SL.Sem

/-- The reference's first dense layer (1 → 16) is the layer. -/
theorem layer1_eq (A : FVec Ideal S100000x1 .f32) (W : FVec Ideal S1x16 .f32) (b : FVec Ideal S16 .f32) :
    maximumf (addf (Host.dotGeneral dot_S100000x1_S1x16_S100000x16_1_0_0_1_n_n none A W)
        (broadcastInDim S100000x16 ![0, 1] bcast_S1x16_S100000x16_0_1 (broadcastInDim S1x16 ![1] bcast_S16_S1x16_1 b)))
      (broadcastInDim S100000x16 ![] bcast_S_S100000x16 (constant (F := Ideal) S_ .f32 0x00000000#32))
      = dense A W b := by
  rw [broadcast_biasRow b]
  exact host_dense A W (biasRow b) _ rfl _ _

/-- The reference's second dense layer (16 → 1) is the layer. -/
theorem layer2_eq (A : FVec Ideal S100000x16 .f32) (W : FVec Ideal S16x1 .f32) (b : FVec Ideal S1 .f32) :
    maximumf (addf (Host.dotGeneral dot_S100000x16_S16x1_S100000x1_1_0_0_1_n_n none A W)
        (broadcastInDim S100000x1 ![0, 1] bcast_S1x1_S100000x1_0_1 (broadcastInDim S1x1 ![1] bcast_S1_S1x1_1 b)))
      (broadcastInDim S100000x1 ![] bcast_S_S100000x1 (constant (F := Ideal) S_ .f32 0x00000000#32))
      = dense A W b := by
  rw [broadcast_biasRow b]
  exact host_dense A W (biasRow b) _ rfl _ _

/-- The reference run's result term is the network of the arguments. -/
theorem result_eq (x : FVec Ideal S100000x1 .f32) (src dst : IVec S3200000 32) (W1 : FVec Ideal S1x16 .f32) (b1 : FVec Ideal S16 .f32)
    (W2 : FVec Ideal S16x1 .f32) (b2 : FVec Ideal S1 .f32) :
    maximumf (addf (Host.dotGeneral dot_S100000x16_S16x1_S100000x1_1_0_0_1_n_n none (Host.scatterAdd scatter_S100000x16_S3200000x1_S3200000x16_1_0_0_1 (broadcastInDim S100000x16 ![] bcast_S_S100000x16 (constant (F := Ideal) S_ .f32 0x00000000#32)) (broadcastInDim S3200000x1 ![0] bcast_S3200000_S3200000x1_0 dst) (Host.gather gather_S100000x16_S3200000x1_S3200000x16_1_0_n_n_0_1_116 (maximumf (addf (Host.dotGeneral dot_S100000x1_S1x16_S100000x16_1_0_0_1_n_n none (Host.scatterAdd scatter_S100000x1_S3200000x1_S3200000x1_1_0_0_1 (broadcastInDim S100000x1 ![] bcast_S_S100000x1 (constant (F := Ideal) S_ .f32 0x00000000#32)) (broadcastInDim S3200000x1 ![0] bcast_S3200000_S3200000x1_0 dst) (Host.gather gather_S100000x1_S3200000x1_S3200000x1_1_0_n_n_0_1_11 x (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)))) W1) (broadcastInDim S100000x16 ![0, 1] bcast_S1x16_S100000x16_0_1 (broadcastInDim S1x16 ![1] bcast_S16_S1x16_1 b1))) (broadcastInDim S100000x16 ![] bcast_S_S100000x16 (constant (F := Ideal) S_ .f32 0x00000000#32))) (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)))) W2) (broadcastInDim S100000x1 ![0, 1] bcast_S1x1_S100000x1_0_1 (broadcastInDim S1x1 ![1] bcast_S1_S1x1_1 b2))) (broadcastInDim S100000x1 ![] bcast_S_S100000x1 (constant (F := Ideal) S_ .f32 0x00000000#32))
      = gcn x src dst W1 b1 W2 b2 := by
  rw [layer2_eq, layer1_eq]
  rfl

end Cert.ReferenceIdeal.RefValue

end
-- ==== Proof.lean ====
/- Two stacked graph-convolution layers — sum the node features over incoming edges, apply a dense layer and a rectifier,
   twice — as a kernel program (two pipelined dense-layer regions among host gathers and scatter-adds) against a plain
   host reference, equal on the extended reals.

   Both programs apply the same host operations for the neighbour sums (same gather and scatter-add dimension numbers, same
   wrap of negative edge sources), so those chains are carried as two unopened functions. What differs is the dense layer:
   the kernel tiles the 100000 rows into 10 blocks of 10000, rounds the operands to bf16 (the identity on the extended
   reals), multiplies into a zero accumulator, adds the bias row (the bias vector reshaped) and takes the maximum with zero;
   the reference does one dot_general over all rows, adds the bias vector broadcast to a row and down the rows, and takes
   the maximum with zero. Read at coordinates both are max(sum over k of A(p,k)·W(k,c) + b(c), 0): plain sums of products with
   the same terms in the same arrangement, so no finiteness of the inputs is used. Each tile the kernel writes back is the
   restriction of that whole-array function to the tile's rows, and the tiles cover the array.

   The three frames: the two kernel programs' are the generated several-region frames; the reference's is its generated run
   with the result dropped. The idealization rewrote nothing, so "preserves" is trivial. -/
import proofs.«154791_j19327352832521_2_alg».proof.Defs
import proofs.«154791_j19327352832521_2_alg».proof.Proof.Gen.Kernel
import proofs.«154791_j19327352832521_2_alg».proof.Proof.Gen.Kernel.Frame
import proofs.«154791_j19327352832521_2_alg».proof.Proof.Gen.KernelIdeal
import proofs.«154791_j19327352832521_2_alg».proof.Proof.Gen.KernelIdeal.Frame
import proofs.«154791_j19327352832521_2_alg».proof.Proof.Gen.ReferenceIdeal
import proofs.«154791_j19327352832521_2_alg».proof.Proof.Gen.Pre_finite_inputs
import proofs.«154791_j19327352832521_2_alg».proof.Proof.Gen.ReferenceIdeal.Run
import proofs.«154791_j19327352832521_2_alg».proof.Proof.KernelValue
import proofs.«154791_j19327352832521_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, both idealized programs end with the result at the network of the arguments. -/
theorem algebraic : Cert.algebraic_KernelIdeal_ReferenceIdeal := by
  intro m ρ m' ρ' _ hagree
  refine ⟨fun c => Cert.Gcn.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact Cert.ReferenceIdeal.RefValue.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
